-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S10000x128 : Shape := ⟨2, ![10000, 128]⟩
abbrev S650000x128 : Shape := ⟨2, ![650000, 128]⟩
abbrev S1x128 : Shape := ⟨2, ![1, 128]⟩
abbrev S50000x64 : Shape := ⟨2, ![50000, 64]⟩
abbrev S10000x64 : Shape := ⟨2, ![10000, 64]⟩
abbrev S650000x64 : Shape := ⟨2, ![650000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S50000, .i32⟩
  | .hbm, ⟨11, _⟩ => ⟨S650000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S50000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S650000, .i32⟩
  | .hbm, ⟨72, _⟩ => ⟨S650000, .i1⟩
  | .hbm, ⟨73, _⟩ => ⟨S_, .i32⟩
  | .hbm, ⟨74, _⟩ => ⟨S650000, .i32⟩
  | .hbm, ⟨75, _⟩ => ⟨S650000, .i32⟩
  | .hbm, ⟨76, _⟩ => ⟨S650000, .i32⟩
  | .hbm, ⟨77, _⟩ => ⟨S650000x1, .i32⟩
  | .hbm, ⟨78, _⟩ => ⟨S650000x64, .f32⟩
  | .hbm, ⟨79, _⟩ => ⟨S650000x1, .f32⟩
  | .hbm, ⟨80, _⟩ => ⟨S650000x64, .f32⟩
  | .hbm, ⟨81, _⟩ => ⟨S650000x64, .f32⟩
  | .hbm, ⟨82, _⟩ => ⟨S_, .f32⟩
  | .hbm, ⟨83, _⟩ => ⟨S50000x64, .f32⟩
  | .hbm, ⟨84, _⟩ => ⟨S650000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S10000x128_S128x128_S10000x128_1_0_0_1_n_n_wf : DotDims.WF S10000x128 S128x128 S10000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S10000x128_S128x64_S10000x64_1_0_0_1_n_n_wf : DotDims.WF S10000x128 S128x64 S10000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x64, .f32⟩
  | 5 => ⟨S64, .f32⟩
  | 6 => ⟨S1x600000, .i32⟩
  | 7 => ⟨S600000, .i32⟩
  | 8 => ⟨S1x600000, .i32⟩
  | 9 => ⟨S600000, .i32⟩
  | 10 => ⟨S50000, .i32⟩
  | 11 => ⟨S650000, .i32⟩
  | 12 => ⟨S650000, .i32⟩
  | 13 => ⟨S_, .f32⟩
  | 14 => ⟨S650000, .f32⟩
  | 15 => ⟨S_, .f32⟩
  | 16 => ⟨S50000, .f32⟩
  | 17 => ⟨S650000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S650000, .i32⟩
  | 29 => ⟨S650000, .i1⟩
  | 30 => ⟨S_, .i32⟩
  | 31 => ⟨S650000, .i32⟩
  | 32 => ⟨S650000, .i32⟩
  | 33 => ⟨S650000, .i32⟩
  | 34 => ⟨S650000x1, .i32⟩
  | 35 => ⟨S650000, .f32⟩
  | 36 => ⟨S_, .i32⟩
  | 37 => ⟨S650000, .i32⟩
  | 38 => ⟨S650000, .i1⟩
  | 39 => ⟨S_, .i32⟩
  | 40 => ⟨S650000, .i32⟩
  | 41 => ⟨S650000, .i32⟩
  | 42 => ⟨S650000, .i32⟩
  | 43 => ⟨S650000x1, .i32⟩
  | 44 => ⟨S650000, .f32⟩
  | 45 => ⟨S650000, .f32⟩
  | 46 => ⟨S50000x128, .f32⟩
  | 47 => ⟨S_, .i32⟩
  | 48 => ⟨S650000, .i32⟩
  | 49 => ⟨S650000, .i1⟩
  | 50 => ⟨S_, .i32⟩
  | 51 => ⟨S650000, .i32⟩
  | 52 => ⟨S650000, .i32⟩
  | 53 => ⟨S650000, .i32⟩
  | 54 => ⟨S650000x1, .i32⟩
  | 55 => ⟨S650000x128, .f32⟩
  | 56 => ⟨S650000x1, .f32⟩
  | 57 => ⟨S650000x128, .f32⟩
  | 58 => ⟨S650000x128, .f32⟩
  | 59 => ⟨S_, .f32⟩
  | 60 => ⟨S50000x128, .f32⟩
  | 61 => ⟨S650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x600000, .i32⟩
  | 70 => ⟨S600000, .i32⟩
  | 71 => ⟨S1x600000, .i32⟩
  | 72 => ⟨S600000, .i32⟩
  | 73 => ⟨S50000, .i32⟩
  | 74 => ⟨S650000, .i32⟩
  | 75 => ⟨S650000, .i32⟩
  | 76 => ⟨S_, .f32⟩
  | 77 => ⟨S650000, .f32⟩
  | 78 => ⟨S_, .f32⟩
  | 79 => ⟨S50000, .f32⟩
  | 80 => ⟨S650000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S650000, .i32⟩
  | 92 => ⟨S650000, .i1⟩
  | 93 => ⟨S_, .i32⟩
  | 94 => ⟨S650000, .i32⟩
  | 95 => ⟨S650000, .i32⟩
  | 96 => ⟨S650000, .i32⟩
  | 97 => ⟨S650000x1, .i32⟩
  | 98 => ⟨S650000, .f32⟩
  | 99 => ⟨S_, .i32⟩
  | 100 => ⟨S650000, .i32⟩
  | 101 => ⟨S650000, .i1⟩
  | 102 => ⟨S_, .i32⟩
  | 103 => ⟨S650000, .i32⟩
  | 104 => ⟨S650000, .i32⟩
  | 105 => ⟨S650000, .i32⟩
  | 106 => ⟨S650000x1, .i32⟩
  | 107 => ⟨S650000, .f32⟩
  | 108 => ⟨S650000, .f32⟩
  | 109 => ⟨S50000x64, .f32⟩
  | 110 => ⟨S_, .i32⟩
  | 111 => ⟨S650000, .i32⟩
  | 112 => ⟨S650000, .i1⟩
  | 113 => ⟨S_, .i32⟩
  | 114 => ⟨S650000, .i32⟩
  | 115 => ⟨S650000, .i32⟩
  | 116 => ⟨S650000, .i32⟩
  | 117 => ⟨S650000x1, .i32⟩
  | 118 => ⟨S650000x64, .f32⟩
  | 119 => ⟨S650000x1, .f32⟩
  | 120 => ⟨S650000x64, .f32⟩
  | 121 => ⟨S650000x64, .f32⟩
  | 122 => ⟨S_, .f32⟩
  | 123 => ⟨S50000x64, .f32⟩
  | 124 => ⟨S650000x1, .i32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

class Facts : Prop extends Facts₀ where

variable [Facts]
-- ==== Proof.Spec.lean ====
/-
  The graph convolution both programs compute, as one function of the six argument arrays, at the ideal values.

  Nodes are 0 … 49999, the edge array has a row of sources and a row of targets for 600000 edges; every node gets a
  self loop, so the two index lists have 650000 entries.  A node's degree is the number of list entries whose
  target it is; its weight is deg^(-1/2) where the degree is positive and 0 elsewhere; an entry's coefficient is the
  product of the weights of its two ends.  One layer takes the rows `xw` of a product X·W, gathers the row of each
  entry's source, scales it by the entry's coefficient, adds it into the row of the entry's target, and adds the
  bias to every row.  The result is layer(relu(layer(X·W1)·W2)).

  The pieces are written with the host operations of the reference program (its gathers and scatter-adds with
  their dimension records), so that each program's text is an instance of them; the two matrix products are
  written as sums over the 128 contracted positions.
-/
import proofs.«171477_j10788957848201_1_alg».proof.Proof.Gen.ReferenceIdeal
import Idealize.ShloMosaic.PureOps.Ideal
import Idealize.ShloMosaic.Lib.ValueIdx

noncomputable section

namespace Cert.Gcn

open Cert.ReferenceIdeal Cert.ReferenceIdeal.Gen Idealize.ShloMosaic Idealize.ShloMosaic.ValueIdx

/-- An integer array of shape `s` at the ideal instance. -/
abbrev IArr (s : Shape) := IVec s 32
/-- A float array of shape `s` at the ideal instance: extended reals. -/
abbrev FArr (s : Shape) := FVec Ideal s .f32

/-- The sources of the 600000 edges followed by the 50000 self loops' (row 0 of the edge array, then 0 … 49999). -/
def srcOf (e : IArr S2x600000) : IArr S650000 :=
  concatenate S650000 0 [⟨S600000, shapeCast _ (extractStridedSlice S1x600000 ![0, 0] e slices_S2x600000_S1x600000_0_0) shapeCasts_S1x600000_S600000⟩, ⟨S50000, iotaInDim S50000 32 0⟩] concatenates_S600000_S50000_S650000_d0

/-- The targets likewise (row 1 of the edge array, then 0 … 49999). -/
def dstOf (e : IArr S2x600000) : IArr S650000 :=
  concatenate S650000 0 [⟨S600000, shapeCast _ (extractStridedSlice S1x600000 ![1, 0] e slices_S2x600000_S1x600000_1_0) shapeCasts_S1x600000_S600000⟩, ⟨S50000, iotaInDim S50000 32 0⟩] concatenates_S600000_S50000_S650000_d0

/-- A list of node numbers as a column of gather starts: a negative entry counts from the end (50000 is added). -/
def startsOf (v : IArr S650000) : IArr S650000x1 :=
  broadcastInDim S650000x1 ![0] bcast_S650000_S650000x1_0
    (select (cmpi .slt v (broadcastInDim S650000 ![] bcast_S_S650000 (constantI S_ 32 0#32)))
      (addi v (broadcastInDim S650000 ![] bcast_S_S650000 (constantI S_ 32 50000#32))) v)

/-- A node's degree: a one added at its number for every entry of the target list. -/
def degOf (dst : IArr S650000) : FArr S50000 :=
  Host.scatterAdd scatter_S50000_S650000x1_S650000_n_0_0_1
    (broadcastInDim S50000 ![] bcast_S_S50000 (constant S_ .f32 0x00000000#32))
    (broadcastInDim S650000x1 ![0] bcast_S650000_S650000x1_0 dst)
    (broadcastInDim S650000 ![] bcast_S_S650000 (constant S_ .f32 0x3F800000#32))

/-- Where a node's degree is positive. -/
def posOf (dst : IArr S650000) : IVec S50000 1 :=
  cmpf .ogt (degOf dst) (broadcastInDim S50000 ![] bcast_S_S50000 (constant S_ .f32 0x00000000#32))

/-- The degree's inverse square root. -/
def rsqrtOf (dst : IArr S650000) : FArr S50000 := Host.rsqrt (degOf dst)

/-- The weights from the positivity mask, the inverse square roots and the value `z` taken elsewhere. -/
def weightFrom (p : IVec S50000 1) (r : FArr S50000) (z : FArr S_) : FArr S50000 :=
  select p r (broadcastInDim S50000 ![] bcast_S_S50000 (id z))

/-- A node's weight: deg^(-1/2) where the degree is positive, 0 elsewhere. -/
def weightOf (dst : IArr S650000) : FArr S50000 :=
  weightFrom (posOf dst) (rsqrtOf dst) (constant S_ .f32 0x00000000#32)

/-- The coefficients from the nodes' weights: the product of the weights of an entry's source and target. -/
def coefFrom (w : FArr S50000) (src dst : IArr S650000) : FArr S650000 :=
  mulf (Host.gather gather_S50000_S650000x1_S650000_n_0_n_n_0_1_1 w (startsOf src))
    (Host.gather gather_S50000_S650000x1_S650000_n_0_n_n_0_1_1 w (startsOf dst))

/-- An entry's coefficient: the product of the weights of its source and of its target. -/
def coefOf (src dst : IArr S650000) : FArr S650000 := coefFrom (weightOf dst) src dst

/-- One layer on 128 columns: each entry's source row of `xw`, scaled by its coefficient, added into its target's
    row; then the bias added to every row. -/
def layer128 (xw : FArr S50000x128) (src dst : IArr S650000) (coef : FArr S650000) (b : FArr S128) : FArr S50000x128 :=
  addf
    (Host.scatterAdd scatter_S50000x128_S650000x1_S650000x128_1_0_0_1
      (broadcastInDim S50000x128 ![] bcast_S_S50000x128 (constant S_ .f32 0x00000000#32))
      (broadcastInDim S650000x1 ![0] bcast_S650000_S650000x1_0 dst)
      (mulf (Host.gather gather_S50000x128_S650000x1_S650000x128_1_0_n_n_0_1_1128 xw (startsOf src))
        (broadcastInDim S650000x128 ![0, 1] bcast_S650000x1_S650000x128_0_1 (broadcastInDim S650000x1 ![0] bcast_S650000_S650000x1_0 coef))))
    (broadcastInDim S50000x128 ![0, 1] bcast_S1x128_S50000x128_0_1 (broadcastInDim S1x128 ![1] bcast_S128_S1x128_1 b))

/-- The same layer on 64 columns. -/
def layer64 (xw : FArr S50000x64) (src dst : IArr S650000) (coef : FArr S650000) (b : FArr S64) : FArr S50000x64 :=
  addf
    (Host.scatterAdd scatter_S50000x64_S650000x1_S650000x64_1_0_0_1
      (broadcastInDim S50000x64 ![] bcast_S_S50000x64 (constant S_ .f32 0x00000000#32))
      (broadcastInDim S650000x1 ![0] bcast_S650000_S650000x1_0 dst)
      (mulf (Host.gather gather_S50000x64_S650000x1_S650000x64_1_0_n_n_0_1_164 xw (startsOf src))
        (broadcastInDim S650000x64 ![0, 1] bcast_S650000x1_S650000x64_0_1 (broadcastInDim S650000x1 ![0] bcast_S650000_S650000x1_0 coef))))
    (broadcastInDim S50000x64 ![0, 1] bcast_S1x64_S50000x64_0_1 (broadcastInDim S1x64 ![1] bcast_S64_S1x64_1 b))

/-- max(h, 0), entry by entry. -/
def relu128 (h : FArr S50000x128) : FArr S50000x128 :=
  maximumf h (broadcastInDim S50000x128 ![] bcast_S_S50000x128 (constant S_ .f32 0x00000000#32))

/-- The product of a [50000,128] array with a [128,128] one: entry (r, c) is the sum over k of x(r,k)·w(k,c). -/
def prod128 (x : FArr S50000x128) (w : FArr S128x128) : FArr S50000x128 :=
  fun i => ∑ k : Fin 128, x (ix2 (i 0) k) * w (ix2 k (i 1))

/-- The product of a [50000,128] array with a [128,64] one. -/
def prod64 (x : FArr S50000x128) (w : FArr S128x64) : FArr S50000x64 :=
  fun i => ∑ k : Fin 128, x (ix2 (i 0) k) * w (ix2 k (i 1))

/-- The hidden features: relu of the first layer applied to X·W1. -/
def hidden (x : FArr S50000x128) (e : IArr S2x600000) (w1 : FArr S128x128) (b1 : FArr S128) : FArr S50000x128 :=
  relu128 (layer128 (prod128 x w1) (srcOf e) (dstOf e) (coefOf (srcOf e) (dstOf e)) b1)

/-- The whole network's output. -/
def output (x : FArr S50000x128) (e : IArr S2x600000) (w1 : FArr S128x128) (b1 : FArr S128) (w2 : FArr S128x64)
    (b2 : FArr S64) : FArr S50000x64 :=
  layer64 (prod64 (hidden x e w1 b1) w2) (srcOf e) (dstOf e) (coefOf (srcOf e) (dstOf e)) b2

end Cert.Gcn

end
-- ==== Proof.KernelHost.lean ====
/-
  The host operations of the kernel's program around its two matrix-product launches, read as the pieces of the
  graph convolution: from ANY contents `V` of the TensorCore's buffers,
  * the operations before the first launch leave the source list, the target list and the coefficients, each a
    function of the edge array alone;
  * the operations between the launches leave relu(layer128 …) of the first product's buffer, the two lists, the
    coefficients and the first bias;
  * the operations after the second launch leave layer64 … of the second product's buffer, the two lists, the
    coefficients and the second bias;
  and each stretch leaves the buffers it does not write as it found them.  Every statement is the fold of the
  operations' results unrolled: an operation's result at the buffer it writes is its function of its operands'
  contents, at any other buffer what was there.
-/
import proofs.«171477_j10788957848201_1_alg».proof.Proof.Spec
import proofs.«171477_j10788957848201_1_alg».proof.Proof.Gen.KernelIdeal.Launch
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo Cert.Gcn

variable (V : Valuation τ sig (Elt Ideal))

/-- The buffers' contents after the three stretches before the first launch. -/
abbrev pre : Valuation τ sig (Elt Ideal) := after hostOps0_2 (after hostOps0_1 (after hostOps0 V))
/-- After the two stretches between the launches. -/
abbrev mid : Valuation τ sig (Elt Ideal) := after hostOps1_1 (after hostOps1 V)
/-- After the stretch that follows the second launch. -/
abbrev post : Valuation τ sig (Elt Ideal) := after hostOps2 V

/-! ## Before the first launch -/

set_option maxRecDepth 16384 in
set_option maxHeartbeats 4000000 in
/-- The source list: row 0 of the edge array, then the self loops. -/
theorem ops0_src : after hostOps0 V (main_v5 : DevRef τ sig) = srcOf (V (main_arg1 : DevRef τ sig)) := by
  after_results
  unfold srcOf
  rfl

set_option maxRecDepth 16384 in
set_option maxHeartbeats 4000000 in
/-- The target list: row 1 of the edge array, then the self loops. -/
theorem ops0_dst : after hostOps0 V (main_v6 : DevRef τ sig) = dstOf (V (main_arg1 : DevRef τ sig)) := by
  after_results
  unfold dstOf
  rfl

set_option maxRecDepth 16384 in
set_option maxHeartbeats 4000000 in
/-- Where the degree is positive. -/
theorem ops0_pos : after hostOps0 V (main_v12 : DevRef τ sig) = posOf (dstOf (V (main_arg1 : DevRef τ sig))) := by
  after_results
  unfold posOf degOf dstOf
  rfl

set_option maxRecDepth 16384 in
set_option maxHeartbeats 4000000 in
/-- The degree's inverse square root. -/
theorem ops0_rsqrt : after hostOps0 V (main_v13 : DevRef τ sig) = rsqrtOf (dstOf (V (main_arg1 : DevRef τ sig))) := by
  after_results
  unfold rsqrtOf degOf dstOf
  rfl

set_option maxRecDepth 16384 in
set_option maxHeartbeats 4000000 in
/-- The zero the weight takes where the degree is not positive. -/
theorem ops0_zero : after hostOps0 V (main_cst_2 : DevRef τ sig) = constant (F := Ideal) Cert.ReferenceIdeal.S_ .f32 0x00000000#32 := by
  after_results

attribute [local irreducible] Host.gather Host.scatterAdd concatenate Host.rsqrt in
set_option maxRecDepth 16384 in
set_option maxHeartbeats 1000000 in
/-- The weights, from the three buffers the first stretch leaves. -/
theorem ops01_weight : after hostOps0_1 V (main_v14 : DevRef τ sig) = weightFrom (V (main_v12 : DevRef τ sig)) (V (main_v13 : DevRef τ sig)) (V (main_cst_2 : DevRef τ sig)) := by
  simp only [after_cons, after_nil]
  rfl

set_option maxRecDepth 16384 in
theorem ops01_src : after hostOps0_1 V (main_v5 : DevRef τ sig) = V (main_v5 : DevRef τ sig) := by
  simp only [after_cons, after_nil]
  rfl

set_option maxRecDepth 16384 in
theorem ops01_dst : after hostOps0_1 V (main_v6 : DevRef τ sig) = V (main_v6 : DevRef τ sig) := by
  simp only [after_cons, after_nil]
  rfl

set_option maxRecDepth 16384 in
set_option maxHeartbeats 4000000 in
/-- The coefficients, from the weights and the two lists. -/
theorem ops02_coef : after hostOps0_2 V (main_v29 : DevRef τ sig) = coefFrom (V (main_v14 : DevRef τ sig)) (V (main_v5 : DevRef τ sig)) (V (main_v6 : DevRef τ sig)) := by
  after_results
  unfold coefFrom startsOf
  rfl

set_option maxRecDepth 16384 in
theorem ops02_src : after hostOps0_2 V (main_v5 : DevRef τ sig) = V (main_v5 : DevRef τ sig) := by
  simp only [after_cons, after_nil]
  rfl

set_option maxRecDepth 16384 in
theorem ops02_dst : after hostOps0_2 V (main_v6 : DevRef τ sig) = V (main_v6 : DevRef τ sig) := by
  simp only [after_cons, after_nil]
  rfl

/-- After the three stretches the source list is still that. -/
theorem pre_src : pre V (main_v5 : DevRef τ sig) = srcOf (V (main_arg1 : DevRef τ sig)) := by
  show after hostOps0_2 (after hostOps0_1 (after hostOps0 V)) (main_v5 : DevRef τ sig) = _
  rw [ops02_src, ops01_src, ops0_src]

theorem pre_dst : pre V (main_v6 : DevRef τ sig) = dstOf (V (main_arg1 : DevRef τ sig)) := by
  show after hostOps0_2 (after hostOps0_1 (after hostOps0 V)) (main_v6 : DevRef τ sig) = _
  rw [ops02_dst, ops01_dst, ops0_dst]

/-- The coefficients: the product of the two ends' weights, entry by entry, the weights deg^(-1/2) where the degree
    is positive and 0 elsewhere. -/
theorem pre_coef : pre V (main_v29 : DevRef τ sig) = coefOf (srcOf (V (main_arg1 : DevRef τ sig))) (dstOf (V (main_arg1 : DevRef τ sig))) := by
  show after hostOps0_2 (after hostOps0_1 (after hostOps0 V)) (main_v29 : DevRef τ sig) = _
  rw [ops02_coef, ops01_weight, ops01_src, ops01_dst, ops0_pos, ops0_rsqrt, ops0_zero, ops0_src, ops0_dst]
  rfl

/-! ## Between the launches -/

set_option maxRecDepth 16384 in
set_option maxHeartbeats 4000000 in
/-- The first layer, from the first product's buffer. -/
theorem ops1_layer : after hostOps1 V (main_v46 : DevRef τ sig)
    = layer128 (V (main_v30 : DevRef τ sig)) (V (main_v5 : DevRef τ sig)) (V (main_v6 : DevRef τ sig)) (V (main_v29 : DevRef τ sig)) (V (main_arg3 : DevRef τ sig)) := by
  after_results
  unfold layer128 startsOf
  rfl

attribute [local irreducible] Host.gather Host.scatterAdd concatenate Host.rsqrt in
set_option maxRecDepth 16384 in
set_option maxHeartbeats 1000000 in
/-- The relu of the first layer. -/
theorem ops11_relu : after hostOps1_1 V (main_v47 : DevRef τ sig) = relu128 (V (main_v46 : DevRef τ sig)) := by
  simp only [after_cons, after_nil]
  rfl

/-- The hidden features from the first product's buffer. -/
theorem mid_hidden : mid V (main_v47 : DevRef τ sig)
    = relu128 (layer128 (V (main_v30 : DevRef τ sig)) (V (main_v5 : DevRef τ sig)) (V (main_v6 : DevRef τ sig)) (V (main_v29 : DevRef τ sig)) (V (main_arg3 : DevRef τ sig))) := by
  show after hostOps1_1 (after hostOps1 V) (main_v47 : DevRef τ sig) = _
  rw [ops11_relu, ops1_layer]

/-! ## The buffers a stretch does not write -/

set_option maxRecDepth 16384 in
theorem pre_arg0 : pre V (main_arg0 : DevRef τ sig) = V (main_arg0 : DevRef τ sig) := by
  simp only [after_cons, after_nil]
  rfl

set_option maxRecDepth 16384 in
theorem pre_arg2 : pre V (main_arg2 : DevRef τ sig) = V (main_arg2 : DevRef τ sig) := by
  simp only [after_cons, after_nil]
  rfl

set_option maxRecDepth 16384 in
theorem pre_arg3 : pre V (main_arg3 : DevRef τ sig) = V (main_arg3 : DevRef τ sig) := by
  simp only [after_cons, after_nil]
  rfl

set_option maxRecDepth 16384 in
theorem pre_arg4 : pre V (main_arg4 : DevRef τ sig) = V (main_arg4 : DevRef τ sig) := by
  simp only [after_cons, after_nil]
  rfl

set_option maxRecDepth 16384 in
theorem pre_arg5 : pre V (main_arg5 : DevRef τ sig) = V (main_arg5 : DevRef τ sig) := by
  simp only [after_cons, after_nil]
  rfl

set_option maxRecDepth 16384 in
theorem mid_src : mid V (main_v5 : DevRef τ sig) = V (main_v5 : DevRef τ sig) := by
  simp only [after_cons, after_nil]
  rfl

set_option maxRecDepth 16384 in
theorem mid_dst : mid V (main_v6 : DevRef τ sig) = V (main_v6 : DevRef τ sig) := by
  simp only [after_cons, after_nil]
  rfl

set_option maxRecDepth 16384 in
theorem mid_coef : mid V (main_v29 : DevRef τ sig) = V (main_v29 : DevRef τ sig) := by
  simp only [after_cons, after_nil]
  rfl

set_option maxRecDepth 16384 in
theorem mid_arg4 : mid V (main_arg4 : DevRef τ sig) = V (main_arg4 : DevRef τ sig) := by
  simp only [after_cons, after_nil]
  rfl

set_option maxRecDepth 16384 in
theorem mid_arg5 : mid V (main_arg5 : DevRef τ sig) = V (main_arg5 : DevRef τ sig) := by
  simp only [after_cons, after_nil]
  rfl

/-! ## After the second launch -/

set_option maxRecDepth 16384 in
set_option maxHeartbeats 4000000 in
/-- The output from the second product's buffer. -/
theorem post_out : post V (main_v64 : DevRef τ sig)
    = layer64 (V (main_v48 : DevRef τ sig)) (V (main_v5 : DevRef τ sig)) (V (main_v6 : DevRef τ sig)) (V (main_v29 : DevRef τ sig)) (V (main_arg5 : DevRef τ sig)) := by
  after_results
  unfold layer64 startsOf
  rfl

end Cert.KernelIdeal.Host

end
-- ==== Proof.KernelProducts.lean ====
/-
  What the two matrix-product launches of the kernel's program leave in their result arrays, at the ideal values.

  Each launch walks five row blocks of 10000 rows.  At a block the body rounds the block of the left array and
  the whole right array to bf16 (the identity at the ideal values) and multiplies them on the matrix unit into a
  zero accumulator: entry (r, c) of the block's result is the sum over k of left(r, k) · right(k, c).  The left
  window's block at point t is rows 10000·t … 10000·t + 9999 of its array, the right window's block is the whole
  array, and the result window's block at point t is the same rows of the result array; the five blocks cover
  the result array.  So the result array ends holding the product of the two arrays, whatever the launch finds
  in the TensorCore's buffers (`V`).
-/
import proofs.«171477_j10788957848201_1_alg».proof.Proof.Spec
import proofs.«171477_j10788957848201_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Products

open Cert.KernelIdeal Cert.KernelIdeal.Gen Idealize.ShloMosaic Idealize.ShloMosaic.TcCoe Idealize.SL.Sem
open Idealize.ShloMosaic.Pipeline (Dat)
open Idealize.ShloMosaic.ValueIdx Cert.Gcn

theorem hz : (![0, 0] : Fin 2 → Nat) = fun _ => 0 := funext fun a => by fin_cases a <;> rfl

/-! ## The block products, entry by entry -/

/-- The first launch's dimension numbers: rows × 128 times 128 × 128. -/
abbrev D0 : DotDims S10000x128 S128x128 S10000x128 := dot_S10000x128_S128x128_S10000x128_1_0_0_1_n_n
/-- The second launch's: rows × 128 times 128 × 64. -/
abbrev D1 : DotDims S10000x128 S128x64 S10000x64 := dot_S10000x128_S128x64_S10000x64_1_0_0_1_n_n

theorem lhs0_0 (i : S10000x128.Idx) (q : D0.contr.Idx) : (D0.lhsIdx i q 0).val = (i 0).val := by
  unfold DotDims.lhsIdx
  rw [dif_neg (show ¬(0 : Fin S10000x128.rank) ∈ D0.lhsBatch by decide), dif_pos (show (0 : Fin S10000x128.rank) ∈ D0.lhsNonContracting by decide)]
  rfl
theorem lhs0_1 (i : S10000x128.Idx) (q : D0.contr.Idx) : (D0.lhsIdx i q 1).val = (q ⟨0, by decide⟩).val :=
  D0.lhsIdx_val_of_single rfl i q
theorem rhs0_0 (i : S10000x128.Idx) (q : D0.contr.Idx) : (D0.rhsIdx i q 0).val = (q ⟨0, by decide⟩).val :=
  D0.rhsIdx_val_of_single rfl i q
theorem rhs0_1 (i : S10000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- Entry (r, c) of the first launch's block result: the sum over k of left(r, k) · right(k, c). -/
theorem block0_apply (x0 : Vec Ideal S10000x128 .f32) (x1 : Vec Ideal S128x128 .f32) (r : Fin 10000) (c : Fin 128) :
    k0_pay1 (F := Ideal) x0 x1 (ix2 r c) = ∑ k : Fin 128, x0 (ix2 r k) * x1 (ix2 k c) := by
  unfold k0_pay1
  refine (Ideal.matmul_constant_zero_apply D0 none _ _ (ix2 r c)).trans ?_
  rw [← Equiv.sum_comp (contrEquiv1 D0 128 rfl rfl).symm]
  refine Finset.sum_congr rfl fun k _ => ?_
  have hk := contrEquiv1_symm_val D0 128 rfl rfl k
  have el : D0.lhsIdx (ix2 r c) ((contrEquiv1 D0 128 rfl rfl).symm k) = ix2 r k := funext fun a => Fin.ext (by
    match a with
    | ⟨0, _⟩ => exact lhs0_0 _ _
    | ⟨1, _⟩ => exact (lhs0_1 _ _).trans hk)
  have er : D0.rhsIdx (ix2 r c) ((contrEquiv1 D0 128 rfl rfl).symm k) = ix2 k c := funext fun a => Fin.ext (by
    match a with
    | ⟨0, _⟩ => exact (rhs0_0 _ _).trans hk
    | ⟨1, _⟩ => exact rhs0_1 _ _)
  rw [el, er]
  rfl

theorem lhs1_0 (i : S10000x64.Idx) (q : D1.contr.Idx) : (D1.lhsIdx i q 0).val = (i 0).val := by
  unfold DotDims.lhsIdx
  rw [dif_neg (show ¬(0 : Fin S10000x128.rank) ∈ D1.lhsBatch by decide), dif_pos (show (0 : Fin S10000x128.rank) ∈ D1.lhsNonContracting by decide)]
  rfl
theorem lhs1_1 (i : S10000x64.Idx) (q : D1.contr.Idx) : (D1.lhsIdx i q 1).val = (q ⟨0, by decide⟩).val :=
  D1.lhsIdx_val_of_single rfl i q
theorem rhs1_0 (i : S10000x64.Idx) (q : D1.contr.Idx) : (D1.rhsIdx i q 0).val = (q ⟨0, by decide⟩).val :=
  D1.rhsIdx_val_of_single rfl i q
theorem rhs1_1 (i : S10000x64.Idx) (q : D1.contr.Idx) : (D1.rhsIdx i q 1).val = (i 1).val := by
  unfold DotDims.rhsIdx
  rw [dif_neg (show ¬(1 : Fin S128x64.rank) ∈ D1.rhsBatch by decide), dif_pos (show (1 : Fin S128x64.rank) ∈ D1.rhsNonContracting by decide)]
  rfl

/-- Entry (r, c) of the second launch's block result. -/
theorem block1_apply (x0 : Vec Ideal S10000x128 .f32) (x1 : Vec Ideal S128x64 .f32) (r : Fin 10000) (c : Fin 64) :
    k1_pay1 (F := Ideal) x0 x1 (ix2 r c) = ∑ k : Fin 128, x0 (ix2 r k) * x1 (ix2 k c) := by
  unfold k1_pay1
  simp only [shapeCast_self]
  refine (Ideal.matmul_constant_zero_apply D1 none _ _ (ix2 r c)).trans ?_
  rw [← Equiv.sum_comp (contrEquiv1 D1 128 rfl rfl).symm]
  refine Finset.sum_congr rfl fun k _ => ?_
  have hk := contrEquiv1_symm_val D1 128 rfl rfl k
  have el : D1.lhsIdx (ix2 r c) ((contrEquiv1 D1 128 rfl rfl).symm k) = ix2 r k := funext fun a => Fin.ext (by
    match a with
    | ⟨0, _⟩ => exact lhs1_0 _ _
    | ⟨1, _⟩ => exact (lhs1_1 _ _).trans hk)
  have er : D1.rhsIdx (ix2 r c) ((contrEquiv1 D1 128 rfl rfl).symm k) = ix2 k c := funext fun a => Fin.ext (by
    match a with
    | ⟨0, _⟩ => exact (rhs1_0 _ _).trans hk
    | ⟨1, _⟩ => exact rhs1_1 _ _)
  rw [el, er]
  rfl

/-! ## From the blocks to the arrays -/

variable (V : (c : Dev nD) → (b : Ref sig .tc) → Buf (Elt Ideal) ((c : Thread nD τ).loc b))

/-- The printed index maps over the first launch's grid: the left and the result windows move one row block per
    point, the right window stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` of the first launch writes back is block `t` of the product of the two arrays. -/
theorem flushed0 (c : Dev nD) (t : Fin cfg0.N) :
    (dat0 V c).flushed 2 t = ((cfg0.win 2).blk t).view.read (Elt Ideal) (prod128 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts0 t
  refine funext fun (j : S10000x128.Idx) => ?_
  obtain ⟨r, q, rfl⟩ : ∃ (r : Fin 10000) (q : Fin 128), j = ix2 r q := ⟨j 0, j 1, eq_ix2 j⟩
  show k0_pay1 (iblk0 V c 0 t) (iblk0 V c 1 t) (ix2 r q) = prod128 (V c main_arg0) (V c main_arg2) (((cfg0.win 2).blk t).view.emb (ix2 r q))
  refine (block0_apply (iblk0 V c 0 t) (iblk0 V c 1 t) r q).trans ?_
  unfold prod128
  refine Finset.sum_congr rfl fun k _ => ?_
  have hl : (iblk0 V c 0 t : Vec Ideal S10000x128 .f32) (ix2 r k)
      = (V c main_arg0 : S50000x128.Idx → EReal) (ix2 ((((cfg0.win 2).blk t).view.emb (ix2 r q)) 0) k) := by
    show V c main_arg0 (((cfg0.win 0).blk t).view.emb (ix2 r k)) = _
    refine congrArg _ (funext fun a => Fin.ext ?_)
    match a with
    | ⟨0, _⟩ => show win0_0.index t (0 : Fin 2) * 10000 + 1 * r.val = win0_2.index t (0 : Fin 2) * 10000 + 1 * r.val; omega
    | ⟨1, _⟩ => show win0_0.index t (1 : Fin 2) * 128 + 1 * k.val = k.val; omega
  have hr : (iblk0 V c 1 t : Vec Ideal S128x128 .f32) (ix2 k q)
      = (V c main_arg2 : S128x128.Idx → EReal) (ix2 k ((((cfg0.win 2).blk t).view.emb (ix2 r q)) 1)) := by
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (· * ·) hl hr

/-- An index of the first product's array is in point `t`'s block iff each coordinate is in the block's range. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row `r` of the first product's array is in the block of point `r / 10000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  have ht : (i 0).val / 10000 < cfg0.N := by rw [hN]; omega
  obtain ⟨e0, e1, e2, e3, e4, e5⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- The first launch's result array ends holding the product of its two operand arrays. -/
theorem arr0 (c : Dev nD) : (dat0 V c).arrAt 2 cfg0.N = prod128 (V c main_arg0) (V c main_arg2) :=
  (dat0 V c).arrAt_eq_of_cover 2 (prod128 (V c main_arg0) (V c main_arg2)) (fun t _ => flushed0 V c t) cover0

/-- The printed index maps over the second launch's grid. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` of the second launch writes back is block `t` of the product of the two arrays. -/
theorem flushed1 (c : Dev nD) (t : Fin cfg1.N) :
    (dat1 V c).flushed 2 t = ((cfg1.win 2).blk t).view.read (Elt Ideal) (prod64 (V c main_v47) (V c main_arg4)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  obtain ⟨e0, e1, e2, e3, e4, e5⟩ := idx_facts1 t
  refine funext fun (j : S10000x64.Idx) => ?_
  obtain ⟨r, q, rfl⟩ : ∃ (r : Fin 10000) (q : Fin 64), j = ix2 r q := ⟨j 0, j 1, eq_ix2 j⟩
  show k1_pay1 (iblk1 V c 0 t) (iblk1 V c 1 t) (ix2 r q) = prod64 (V c main_v47) (V c main_arg4) (((cfg1.win 2).blk t).view.emb (ix2 r q))
  refine (block1_apply (iblk1 V c 0 t) (iblk1 V c 1 t) r q).trans ?_
  unfold prod64
  refine Finset.sum_congr rfl fun k _ => ?_
  have hl : (iblk1 V c 0 t : Vec Ideal S10000x128 .f32) (ix2 r k)
      = (V c main_v47 : S50000x128.Idx → EReal) (ix2 ((((cfg1.win 2).blk t).view.emb (ix2 r q)) 0) k) := by
    show V c main_v47 (((cfg1.win 0).blk t).view.emb (ix2 r k)) = _
    refine congrArg _ (funext fun a => Fin.ext ?_)
    match a with
    | ⟨0, _⟩ => show win1_0.index t (0 : Fin 2) * 10000 + 1 * r.val = win1_2.index t (0 : Fin 2) * 10000 + 1 * r.val; omega
    | ⟨1, _⟩ => show win1_0.index t (1 : Fin 2) * 128 + 1 * k.val = k.val; omega
  have hr : (iblk1 V c 1 t : Vec Ideal S128x64 .f32) (ix2 k q)
      = (V c main_arg4 : S128x64.Idx → EReal) (ix2 k ((((cfg1.win 2).blk t).view.emb (ix2 r q)) 1)) := by
    show V c main_arg4 (((cfg1.win 1).blk t).view.emb (ix2 k q)) = _
    refine congrArg _ (funext fun a => Fin.ext ?_)
    match a with
    | ⟨0, _⟩ => show win1_1.index t (0 : Fin 2) * 128 + 1 * k.val = k.val; omega
    | ⟨1, _⟩ => show win1_1.index t (1 : Fin 2) * 64 + 1 * q.val = win1_2.index t (1 : Fin 2) * 64 + 1 * q.val; omega
  exact congrArg₂ (· * ·) hl hr

theorem mem_blk1 (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 5 := N_1
  have ht : (i 0).val / 10000 < cfg1.N := by rw [hN]; omega
  obtain ⟨e0, e1, e2, e3, e4, e5⟩ := idx_facts1 ⟨(i 0).val / 10000, ht⟩
  refine ⟨⟨(i 0).val / 10000, ht⟩, flush1_2 _, ?_⟩
  rw [mem_blk1]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- The second launch's result array ends holding the product of its two operand arrays. -/
theorem arr1 (c : Dev nD) : (dat1 V c).arrAt 2 cfg1.N = prod64 (V c main_v47) (V c main_arg4) :=
  (dat1 V c).arrAt_eq_of_cover 2 (prod64 (V c main_v47) (V c main_arg4)) (fun t _ => flushed1 V c t) cover1

end Cert.KernelIdeal.Products

end
-- ==== Proof.KernelRun.lean ====
/-
  The run of the kernel's program with its result named: every weakly fair execution from a memory with zero
  counters terminates without a fault, the result buffer holds what the last boundary of the program's segments
  leaves there (`W8`, the fold of the host stretches and of the two launches' write-backs from the launch memory),
  and the six argument arrays are as launched.  The same launch of the segments as the frame claim's, read at one
  more buffer of the final state.
-/
import proofs.«171477_j10788957848201_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' launch, with the result buffer read off the last thread state beside the arguments. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Whole

end
-- ==== Proof.KernelValue.lean ====
/-
  The kernel's program computes the graph convolution: its result buffer after the last segment holds the
  network's output of the six argument arrays.

  The program's segments are: three host stretches (the index lists, the weights, the coefficients), the first
  launch (the product X·W1 into its own buffer), two host stretches (the first layer, the relu), the second launch
  (the product of the hidden features with W2), and a last host stretch (the second layer).  A host stretch
  changes only the buffers it writes, a launch only its result array; so the index lists and the coefficients
  made before the first launch are still in their buffers when each layer reads them, and the argument arrays
  are read as launched throughout.  Walking the boundaries' contents in order gives the output.
-/
import proofs.«171477_j10788957848201_1_alg».proof.Proof.KernelHost
import proofs.«171477_j10788957848201_1_alg».proof.Proof.KernelProducts
import proofs.«171477_j10788957848201_1_alg».proof.Proof.KernelRun

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Cert.Gcn

variable (m : (ℓ : Loc nD τ sig) → Buf (Elt Ideal) ℓ) (ρ : Dev nD → PrngReg)

/-- The launch contents of a buffer are the launch memory's. -/
theorem W0_eq (c : Dev nD) (b : Ref sig .tc) : W0 m ρ c (Proc.devRef .tc b) = m ((c.tc : Thread nD τ).loc b) := rfl

/-- The result buffer after the last segment holds the network's output of the argument arrays. -/
theorem out_eq (c : Dev nD) : W8 m ρ c (Proc.devRef .tc main_v64)
    = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  -- at the first launch's entry
  have s3 : W3 m ρ c (Proc.devRef .tc main_v5) = srcOf (m ((c.tc : Thread nD τ).loc main_arg1)) := Host.pre_src (W0 m ρ c)
  have d3 : W3 m ρ c (Proc.devRef .tc main_v6) = dstOf (m ((c.tc : Thread nD τ).loc main_arg1)) := Host.pre_dst (W0 m ρ c)
  have c3 : W3 m ρ c (Proc.devRef .tc main_v29) = coefOf (srcOf (m ((c.tc : Thread nD τ).loc main_arg1))) (dstOf (m ((c.tc : Thread nD τ).loc main_arg1))) :=
    Host.pre_coef (W0 m ρ c)
  have a0 : W3 m ρ c (Proc.devRef .tc main_arg0) = (m ((c.tc : Thread nD τ).loc main_arg0)) := Host.pre_arg0 (W0 m ρ c)
  have a2 : W3 m ρ c (Proc.devRef .tc main_arg2) = (m ((c.tc : Thread nD τ).loc main_arg2)) := Host.pre_arg2 (W0 m ρ c)
  have a3 : W3 m ρ c (Proc.devRef .tc main_arg3) = (m ((c.tc : Thread nD τ).loc main_arg3)) := Host.pre_arg3 (W0 m ρ c)
  have a4 : W3 m ρ c (Proc.devRef .tc main_arg4) = (m ((c.tc : Thread nD τ).loc main_arg4)) := Host.pre_arg4 (W0 m ρ c)
  have a5 : W3 m ρ c (Proc.devRef .tc main_arg5) = (m ((c.tc : Thread nD τ).loc main_arg5)) := Host.pre_arg5 (W0 m ρ c)
  -- at the first launch's exit
  have p4 : W4 m ρ c (Proc.devRef .tc main_v30) = prod128 (m ((c.tc : Thread nD τ).loc main_arg0)) (m ((c.tc : Thread nD τ).loc main_arg2)) := by
    refine ((W4_arr m ρ c 2).trans (Products.arr0 (V3 m ρ) c)).trans ?_
    show prod128 (W3 m ρ c (Proc.devRef .tc main_arg0)) (W3 m ρ c (Proc.devRef .tc main_arg2)) = _
    rw [a0, a2]
  have s4 : W4 m ρ c (Proc.devRef .tc main_v5) = _ := (W4_of_ne m ρ c main_v5 (by decide)).trans s3
  have d4 : W4 m ρ c (Proc.devRef .tc main_v6) = _ := (W4_of_ne m ρ c main_v6 (by decide)).trans d3
  have c4 : W4 m ρ c (Proc.devRef .tc main_v29) = _ := (W4_of_ne m ρ c main_v29 (by decide)).trans c3
  have b4 : W4 m ρ c (Proc.devRef .tc main_arg3) = _ := (W4_of_ne m ρ c main_arg3 (by decide)).trans a3
  have e4 : W4 m ρ c (Proc.devRef .tc main_arg4) = _ := (W4_of_ne m ρ c main_arg4 (by decide)).trans a4
  have f4 : W4 m ρ c (Proc.devRef .tc main_arg5) = _ := (W4_of_ne m ρ c main_arg5 (by decide)).trans a5
  -- at the second launch's entry
  have h6 : W6 m ρ c (Proc.devRef .tc main_v47) = hidden (m ((c.tc : Thread nD τ).loc main_arg0)) (m ((c.tc : Thread nD τ).loc main_arg1)) (m ((c.tc : Thread nD τ).loc main_arg2)) (m ((c.tc : Thread nD τ).loc main_arg3)) := by
    refine (Host.mid_hidden (W4 m ρ c)).trans ?_
    rw [p4, s4, d4, c4, b4]
    rfl
  have s6 : W6 m ρ c (Proc.devRef .tc main_v5) = _ := (Host.mid_src (W4 m ρ c)).trans s4
  have d6 : W6 m ρ c (Proc.devRef .tc main_v6) = _ := (Host.mid_dst (W4 m ρ c)).trans d4
  have c6 : W6 m ρ c (Proc.devRef .tc main_v29) = _ := (Host.mid_coef (W4 m ρ c)).trans c4
  have e6 : W6 m ρ c (Proc.devRef .tc main_arg4) = _ := (Host.mid_arg4 (W4 m ρ c)).trans e4
  have f6 : W6 m ρ c (Proc.devRef .tc main_arg5) = _ := (Host.mid_arg5 (W4 m ρ c)).trans f4
  -- at the second launch's exit
  have p7 : W7 m ρ c (Proc.devRef .tc main_v48)
      = prod64 (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
    refine ((W7_arr m ρ c 2).trans (Products.arr1 (V6 m ρ) c)).trans ?_
    show prod64 (W6 m ρ c (Proc.devRef .tc main_v47)) (W6 m ρ c (Proc.devRef .tc main_arg4)) = _
    rw [h6, e6]
  have s7 : W7 m ρ c (Proc.devRef .tc main_v5) = _ := (W7_of_ne m ρ c main_v5 (by decide)).trans s6
  have d7 : W7 m ρ c (Proc.devRef .tc main_v6) = _ := (W7_of_ne m ρ c main_v6 (by decide)).trans d6
  have c7 : W7 m ρ c (Proc.devRef .tc main_v29) = _ := (W7_of_ne m ρ c main_v29 (by decide)).trans c6
  have f7 : W7 m ρ c (Proc.devRef .tc main_arg5) = _ := (W7_of_ne m ρ c main_arg5 (by decide)).trans f6
  -- after the last stretch
  refine (Host.post_out (W7 m ρ c)).trans ?_
  rw [p7, s7, d7, c7, f7]
  rfl

/-- The kernel's run, read: the result buffer at the network's output of the launch contents of the six arguments,
    the arguments unchanged. -/
theorem run_value : θ_run defs (onTc (τ := τ) (main (F := Ideal))) ⟨m, fun _ => 0, ρ⟩ (fun r => ∀ c : Dev nD,
      r.2.mem ((c.tc : Thread nD τ).loc main_v64)
          = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_eq m ρ c), (h c).2⟩) (run m ρ)

end Cert.KernelIdeal.Whole

end
-- ==== Proof.RefRun.lean ====
/-
  The reference program's run, read as the graph convolution of its six argument arrays.

  The reference is a straight line of 123 host operations.  Its run ends with every buffer at the fold of the
  operations' results over the launch memory.  The line is cut where the mathematics is: the operations that make
  the two index lists and the coefficients from the edge array; the first matrix product and the first layer with
  its relu; the same index lists and coefficients made a second time; the second matrix product and the second
  layer.  Each stretch is read from ANY contents `V` of the buffers as the corresponding piece of the
  specification, and leaves the buffers it does not write as it found them; a host matrix product at the ideal
  values is the sum over the contracted position.
-/
import proofs.«171477_j10788957848201_1_alg».proof.Proof.Spec
import Idealize.ShloMosaic.Lib.StableHlo.Run
import Idealize.ShloMosaic.Lib.ValueIdx
import Idealize.ShloMosaic.PureOps.Ideal.Laws

noncomputable section

namespace Cert.ReferenceIdeal.Whole

open Cert.ReferenceIdeal Cert.ReferenceIdeal.Gen Idealize.ShloMosaic Idealize.ShloMosaic.TcCoe Idealize.SL.Sem Idealize.ShloMosaic.StableHlo
open Idealize.ShloMosaic.ValueIdx Cert.Gcn

variable {F : FTy → Type} [FloatOps F]

/-! ## The program as a line of operations -/

/-- The 18 operations that make the two index lists, the degrees' positivity mask and their inverse square roots (first time). -/
abbrev opsA1 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_v4 (iotaInDim S50000 32 0),
    binary main_v1 main_v4 main_v5 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    binary main_v3 main_v4 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst (constant S_ .f32 0x3F800000#32),
    unary main_cst main_v7 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S650000x1 ![0] bcast_S650000_S650000x1_0 : (⟨S650000, .i32⟩ : BufTy).Contents (Elt F) → (⟨S650000x1, .i32⟩ : BufTy).Contents (Elt F)),
    ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- The weights: the select of `jnp.where` (first time). -/
abbrev opsA2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- The 19 operations that make the coefficients from the weights (first time). -/
abbrev opsA3 : List (HloOp τ sig (Elt F)) :=
  [ nullary main_c (constantI S_ 32 0#32),
    unary main_c main_v15 (broadcastInDim S650000 ![] bcast_S_S650000 : (⟨S_, .i32⟩ : BufTy).Contents (Elt F) → (⟨S650000, .i32⟩ : BufTy).Contents (Elt F)),
    binary main_v5 main_v15 main_v16 (cmpi .slt : (⟨S650000, .i32⟩ : BufTy).Contents (Elt F) → (⟨S650000, .i32⟩ : BufTy).Contents (Elt F) → (⟨S650000, .i1⟩ : BufTy).Contents (Elt F)),
    nullary main_c_3 (constantI S_ 32 50000#32),
    unary main_c_3 main_v17 (broadcastInDim S650000 ![] bcast_S_S650000 : (⟨S_, .i32⟩ : BufTy).Contents (Elt F) → (⟨S650000, .i32⟩ : BufTy).Contents (Elt F)),
    binary main_v5 main_v17 main_v18 (addi : (⟨S650000, .i32⟩ : BufTy).Contents (Elt F) → (⟨S650000, .i32⟩ : BufTy).Contents (Elt F) → (⟨S650000, .i32⟩ : BufTy).Contents (Elt F)),
    ternary main_v16 main_v18 main_v5 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v19 main_v20 (broadcastInDim S650000x1 ![0] bcast_S650000_S650000x1_0 : (⟨S650000, .i32⟩ : BufTy).Contents (Elt F) → (⟨S650000x1, .i32⟩ : BufTy).Contents (Elt F)),
    binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_4 (constantI S_ 32 0#32),
    unary main_c_4 main_v22 (broadcastInDim S650000 ![] bcast_S_S650000 : (⟨S_, .i32⟩ : BufTy).Contents (Elt F) → (⟨S650000, .i32⟩ : BufTy).Contents (Elt F)),
    binary main_v6 main_v22 main_v23 (cmpi .slt : (⟨S650000, .i32⟩ : BufTy).Contents (Elt F) → (⟨S650000, .i32⟩ : BufTy).Contents (Elt F) → (⟨S650000, .i1⟩ : BufTy).Contents (Elt F)),
    nullary main_c_5 (constantI S_ 32 50000#32),
    unary main_c_5 main_v24 (broadcastInDim S650000 ![] bcast_S_S650000 : (⟨S_, .i32⟩ : BufTy).Contents (Elt F) → (⟨S650000, .i32⟩ : BufTy).Contents (Elt F)),
    binary main_v6 main_v24 main_v25 (addi : (⟨S650000, .i32⟩ : BufTy).Contents (Elt F) → (⟨S650000, .i32⟩ : BufTy).Contents (Elt F) → (⟨S650000, .i32⟩ : BufTy).Contents (Elt F)),
    ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v26 main_v27 (broadcastInDim S650000x1 ![0] bcast_S650000_S650000x1_0 : (⟨S650000, .i32⟩ : BufTy).Contents (Elt F) → (⟨S650000x1, .i32⟩ : BufTy).Contents (Elt F)),
    binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v21 main_v28 main_v29 (mulf : (⟨S650000, .f32⟩ : BufTy).Contents (Elt F) → (⟨S650000, .f32⟩ : BufTy).Contents (Elt F) → (⟨S650000, .f32⟩ : BufTy).Contents (Elt F)) ]

/-- The first matrix product and the first layer (20 operations). -/
abbrev opsB1 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S650000 ![] bcast_S_S650000 : (⟨S_, .i32⟩ : BufTy).Contents (Elt F) → (⟨S650000, .i32⟩ : BufTy).Contents (Elt F)),
    binary main_v5 main_v31 main_v32 (cmpi .slt : (⟨S650000, .i32⟩ : BufTy).Contents (Elt F) → (⟨S650000, .i32⟩ : BufTy).Contents (Elt F) → (⟨S650000, .i1⟩ : BufTy).Contents (Elt F)),
    nullary main_c_7 (constantI S_ 32 50000#32),
    unary main_c_7 main_v33 (broadcastInDim S650000 ![] bcast_S_S650000 : (⟨S_, .i32⟩ : BufTy).Contents (Elt F) → (⟨S650000, .i32⟩ : BufTy).Contents (Elt F)),
    binary main_v5 main_v33 main_v34 (addi : (⟨S650000, .i32⟩ : BufTy).Contents (Elt F) → (⟨S650000, .i32⟩ : BufTy).Contents (Elt F) → (⟨S650000, .i32⟩ : BufTy).Contents (Elt F)),
    ternary main_v32 main_v34 main_v5 main_v35 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v35 main_v36 (broadcastInDim S650000x1 ![0] bcast_S650000_S650000x1_0 : (⟨S650000, .i32⟩ : BufTy).Contents (Elt F) → (⟨S650000x1, .i32⟩ : BufTy).Contents (Elt F)),
    binary main_v30 main_v36 main_v37 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v29 main_v38 (broadcastInDim S650000x1 ![0] bcast_S650000_S650000x1_0 : (⟨S650000, .f32⟩ : BufTy).Contents (Elt F) → (⟨S650000x1, .f32⟩ : BufTy).Contents (Elt F)),
    unary main_v38 main_v39 (broadcastInDim S650000x128 ![0, 1] bcast_S650000x1_S650000x128_0_1 : (⟨S650000x1, .f32⟩ : BufTy).Contents (Elt F) → (⟨S650000x128, .f32⟩ : BufTy).Contents (Elt F)),
    binary main_v37 main_v39 main_v40 (mulf : (⟨S650000x128, .f32⟩ : BufTy).Contents (Elt F) → (⟨S650000x128, .f32⟩ : BufTy).Contents (Elt F) → (⟨S650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S650000x1 ![0] bcast_S650000_S650000x1_0 : (⟨S650000, .i32⟩ : BufTy).Contents (Elt F) → (⟨S650000x1, .i32⟩ : BufTy).Contents (Elt F)),
    ternary main_v41 main_v42 main_v40 main_v43 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- The relu. -/
abbrev opsB2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The index lists, the positivity mask and the inverse square roots, a second time. -/
abbrev opsC1 : List (HloOp τ sig (Elt F)) :=
  [ unary main_arg1 main_v48 ((extractStridedSlice S1x600000 ![0, 0] · slices_S2x600000_S1x600000_0_0) : (⟨S2x600000, .i32⟩ : BufTy).Contents (Elt F) → (⟨S1x600000, .i32⟩ : BufTy).Contents (Elt F)),
    reshape main_v48 main_v49 rfl shapeCasts_S1x600000_S600000,
    unary main_arg1 main_v50 ((extractStridedSlice S1x600000 ![1, 0] · slices_S2x600000_S1x600000_1_0) : (⟨S2x600000, .i32⟩ : BufTy).Contents (Elt F) → (⟨S1x600000, .i32⟩ : BufTy).Contents (Elt F)),
    reshape main_v50 main_v51 rfl shapeCasts_S1x600000_S600000,
    nullary main_v52 (iotaInDim S50000 32 0),
    binary main_v49 main_v52 main_v53 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    binary main_v51 main_v52 main_v54 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst_9 (constant S_ .f32 0x3F800000#32),
    unary main_cst_9 main_v55 (broadcastInDim S650000 ![] bcast_S_S650000 : (⟨S_, .f32⟩ : BufTy).Contents (Elt F) → (⟨S650000, .f32⟩ : BufTy).Contents (Elt F)),
    nullary main_cst_10 (constant S_ .f32 0x00000000#32),
    unary main_cst_10 main_v56 (broadcastInDim S50000 ![] bcast_S_S50000 : (⟨S_, .f32⟩ : BufTy).Contents (Elt F) → (⟨S50000, .f32⟩ : BufTy).Contents (Elt F)),
    unary main_v54 main_v57 (broadcastInDim S650000x1 ![0] bcast_S650000_S650000x1_0 : (⟨S650000, .i32⟩ : BufTy).Contents (Elt F) → (⟨S650000x1, .i32⟩ : BufTy).Contents (Elt F)),
    ternary main_v56 main_v57 main_v55 main_v58 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_11 (constant S_ .f32 0x00000000#32),
    unary main_cst_11 main_v59 (broadcastInDim S50000 ![] bcast_S_S50000 : (⟨S_, .f32⟩ : BufTy).Contents (Elt F) → (⟨S50000, .f32⟩ : BufTy).Contents (Elt F)),
    binary main_v58 main_v59 main_v60 (cmpf .ogt : (⟨S50000, .f32⟩ : BufTy).Contents (Elt F) → (⟨S50000, .f32⟩ : BufTy).Contents (Elt F) → (⟨S50000, .i1⟩ : BufTy).Contents (Elt F)),
    unary main_v58 main_v61 (Host.rsqrt : (⟨S50000, .f32⟩ : BufTy).Contents (Elt F) → (⟨S50000, .f32⟩ : BufTy).Contents (Elt F)),
    nullary main_cst_12 (constant S_ .f32 0x00000000#32) ]

/-- The weights, a second time. -/
abbrev opsC2 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v60) (TRef.of (T := ⟨S50000, .f32⟩) main_v61) (TRef.of (T := ⟨S50000, .f32⟩) main_call2_v1) (TRef.of (T := ⟨S50000, .f32⟩) main_v62) select ]

/-- The coefficients, a second time. -/
abbrev opsC3 : List (HloOp τ sig (Elt F)) :=
  [ nullary main_c_13 (constantI S_ 32 0#32),
    unary main_c_13 main_v63 (broadcastInDim S650000 ![] bcast_S_S650000 : (⟨S_, .i32⟩ : BufTy).Contents (Elt F) → (⟨S650000, .i32⟩ : BufTy).Contents (Elt F)),
    binary main_v53 main_v63 main_v64 (cmpi .slt : (⟨S650000, .i32⟩ : BufTy).Contents (Elt F) → (⟨S650000, .i32⟩ : BufTy).Contents (Elt F) → (⟨S650000, .i1⟩ : BufTy).Contents (Elt F)),
    nullary main_c_14 (constantI S_ 32 50000#32),
    unary main_c_14 main_v65 (broadcastInDim S650000 ![] bcast_S_S650000 : (⟨S_, .i32⟩ : BufTy).Contents (Elt F) → (⟨S650000, .i32⟩ : BufTy).Contents (Elt F)),
    binary main_v53 main_v65 main_v66 (addi : (⟨S650000, .i32⟩ : BufTy).Contents (Elt F) → (⟨S650000, .i32⟩ : BufTy).Contents (Elt F) → (⟨S650000, .i32⟩ : BufTy).Contents (Elt F)),
    ternary main_v64 main_v66 main_v53 main_v67 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v67 main_v68 (broadcastInDim S650000x1 ![0] bcast_S650000_S650000x1_0 : (⟨S650000, .i32⟩ : BufTy).Contents (Elt F) → (⟨S650000x1, .i32⟩ : BufTy).Contents (Elt F)),
    binary main_v62 main_v68 main_v69 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_15 (constantI S_ 32 0#32),
    unary main_c_15 main_v70 (broadcastInDim S650000 ![] bcast_S_S650000 : (⟨S_, .i32⟩ : BufTy).Contents (Elt F) → (⟨S650000, .i32⟩ : BufTy).Contents (Elt F)),
    binary main_v54 main_v70 main_v71 (cmpi .slt : (⟨S650000, .i32⟩ : BufTy).Contents (Elt F) → (⟨S650000, .i32⟩ : BufTy).Contents (Elt F) → (⟨S650000, .i1⟩ : BufTy).Contents (Elt F)),
    nullary main_c_16 (constantI S_ 32 50000#32),
    unary main_c_16 main_v72 (broadcastInDim S650000 ![] bcast_S_S650000 : (⟨S_, .i32⟩ : BufTy).Contents (Elt F) → (⟨S650000, .i32⟩ : BufTy).Contents (Elt F)),
    binary main_v54 main_v72 main_v73 (addi : (⟨S650000, .i32⟩ : BufTy).Contents (Elt F) → (⟨S650000, .i32⟩ : BufTy).Contents (Elt F) → (⟨S650000, .i32⟩ : BufTy).Contents (Elt F)),
    ternary main_v71 main_v73 main_v54 main_v74 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v74 main_v75 (broadcastInDim S650000x1 ![0] bcast_S650000_S650000x1_0 : (⟨S650000, .i32⟩ : BufTy).Contents (Elt F) → (⟨S650000x1, .i32⟩ : BufTy).Contents (Elt F)),
    binary main_v62 main_v75 main_v76 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v69 main_v76 main_v77 (mulf : (⟨S650000, .f32⟩ : BufTy).Contents (Elt F) → (⟨S650000, .f32⟩ : BufTy).Contents (Elt F) → (⟨S650000, .f32⟩ : BufTy).Contents (Elt F)) ]

/-- The second matrix product and the second layer (20 operations). -/
abbrev opsD : List (HloOp τ sig (Elt F)) :=
  [ binary main_v47 main_arg4 main_v78 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_17 (constantI S_ 32 0#32),
    unary main_c_17 main_v79 (broadcastInDim S650000 ![] bcast_S_S650000 : (⟨S_, .i32⟩ : BufTy).Contents (Elt F) → (⟨S650000, .i32⟩ : BufTy).Contents (Elt F)),
    binary main_v53 main_v79 main_v80 (cmpi .slt : (⟨S650000, .i32⟩ : BufTy).Contents (Elt F) → (⟨S650000, .i32⟩ : BufTy).Contents (Elt F) → (⟨S650000, .i1⟩ : BufTy).Contents (Elt F)),
    nullary main_c_18 (constantI S_ 32 50000#32),
    unary main_c_18 main_v81 (broadcastInDim S650000 ![] bcast_S_S650000 : (⟨S_, .i32⟩ : BufTy).Contents (Elt F) → (⟨S650000, .i32⟩ : BufTy).Contents (Elt F)),
    binary main_v53 main_v81 main_v82 (addi : (⟨S650000, .i32⟩ : BufTy).Contents (Elt F) → (⟨S650000, .i32⟩ : BufTy).Contents (Elt F) → (⟨S650000, .i32⟩ : BufTy).Contents (Elt F)),
    ternary main_v80 main_v82 main_v53 main_v83 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v83 main_v84 (broadcastInDim S650000x1 ![0] bcast_S650000_S650000x1_0 : (⟨S650000, .i32⟩ : BufTy).Contents (Elt F) → (⟨S650000x1, .i32⟩ : BufTy).Contents (Elt F)),
    binary main_v78 main_v84 main_v85 ((fun x i => Host.gather gather_S50000x64_S650000x1_S650000x64_1_0_n_n_0_1_164 x i) : (⟨S50000x64, .f32⟩ : BufTy).Contents (Elt F) → (⟨S650000x1, .i32⟩ : BufTy).Contents (Elt F) → (⟨S650000x64, .f32⟩ : BufTy).Contents (Elt F)),
    unary main_v77 main_v86 (broadcastInDim S650000x1 ![0] bcast_S650000_S650000x1_0 : (⟨S650000, .f32⟩ : BufTy).Contents (Elt F) → (⟨S650000x1, .f32⟩ : BufTy).Contents (Elt F)),
    unary main_v86 main_v87 (broadcastInDim S650000x64 ![0, 1] bcast_S650000x1_S650000x64_0_1 : (⟨S650000x1, .f32⟩ : BufTy).Contents (Elt F) → (⟨S650000x64, .f32⟩ : BufTy).Contents (Elt F)),
    binary main_v85 main_v87 main_v88 (mulf : (⟨S650000x64, .f32⟩ : BufTy).Contents (Elt F) → (⟨S650000x64, .f32⟩ : BufTy).Contents (Elt F) → (⟨S650000x64, .f32⟩ : BufTy).Contents (Elt F)),
    nullary main_cst_19 (constant S_ .f32 0x00000000#32),
    unary main_cst_19 main_v89 (broadcastInDim S50000x64 ![] bcast_S_S50000x64 : (⟨S_, .f32⟩ : BufTy).Contents (Elt F) → (⟨S50000x64, .f32⟩ : BufTy).Contents (Elt F)),
    unary main_v54 main_v90 (broadcastInDim S650000x1 ![0] bcast_S650000_S650000x1_0 : (⟨S650000, .i32⟩ : BufTy).Contents (Elt F) → (⟨S650000x1, .i32⟩ : BufTy).Contents (Elt F)),
    ternary main_v89 main_v90 main_v88 main_v91 ((fun x i u => Host.scatterAdd scatter_S50000x64_S650000x1_S650000x64_1_0_0_1 x i u) : (⟨S50000x64, .f32⟩ : BufTy).Contents (Elt F) → (⟨S650000x1, .i32⟩ : BufTy).Contents (Elt F) → (⟨S650000x64, .f32⟩ : BufTy).Contents (Elt F) → (⟨S50000x64, .f32⟩ : BufTy).Contents (Elt F)),
    unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S50000x64 ![0, 1] bcast_S1x64_S50000x64_0_1 : (⟨S1x64, .f32⟩ : BufTy).Contents (Elt F) → (⟨S50000x64, .f32⟩ : BufTy).Contents (Elt F)),
    binary main_v91 main_v93 main_v94 (addf : (⟨S50000x64, .f32⟩ : BufTy).Contents (Elt F) → (⟨S50000x64, .f32⟩ : BufTy).Contents (Elt F) → (⟨S50000x64, .f32⟩ : BufTy).Contents (Elt F)) ]

/-- @main's 123 operations, in order. -/
abbrev ops : List (HloOp τ sig (Elt F)) :=
  opsA1 ++ (opsA2 ++ (opsA3 ++ (opsB1 ++ (opsB2 ++ (opsC1 ++ (opsC2 ++ (opsC3 ++ opsD)))))))

set_option maxRecDepth 16384 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- The fold over a line cut in two is the fold over the second part of the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Every weakly fair execution of the reference terminates, and every TensorCore buffer ends at the fold of the
    nine stretches over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsD (after opsC3 (after opsC2 (after opsC1 (after opsB2 (after opsB1 (after opsA3 (after opsA2 (after opsA1 (launchContents m c))))))))) (b : DevRef τ sig) :=
  (θ_run defs _ _).mono (fun _ h c b => (h c b).trans (by
      simp only [after_append]))
    (run_seq scopedRefs_eq scopedSems_eq defs main (fun _ => ops) main_eq (fun _ => ops_sub) m ρ)

/-! ## The stretches, from any contents of the buffers -/

section Stretches

variable (V : Valuation τ sig (Elt Ideal))

/-! ### The index lists and the coefficients, first time -/

set_option maxRecDepth 16384 in
set_option maxHeartbeats 4000000 in
/-- The source list: row 0 of the edge array, then the self loops. -/
theorem A1_src : after opsA1 V (main_v5 : DevRef τ sig) = srcOf (V (main_arg1 : DevRef τ sig)) := by
  after_results
  unfold srcOf
  rfl

set_option maxRecDepth 16384 in
set_option maxHeartbeats 4000000 in
/-- The target list: row 1 of the edge array, then the self loops. -/
theorem A1_dst : after opsA1 V (main_v6 : DevRef τ sig) = dstOf (V (main_arg1 : DevRef τ sig)) := by
  after_results
  unfold dstOf
  rfl

set_option maxRecDepth 16384 in
set_option maxHeartbeats 4000000 in
/-- Where the degree is positive. -/
theorem A1_pos : after opsA1 V (main_v12 : DevRef τ sig) = posOf (dstOf (V (main_arg1 : DevRef τ sig))) := by
  after_results
  unfold posOf degOf dstOf
  rfl

set_option maxRecDepth 16384 in
set_option maxHeartbeats 4000000 in
/-- The degree's inverse square root. -/
theorem A1_rsqrt : after opsA1 V (main_v13 : DevRef τ sig) = rsqrtOf (dstOf (V (main_arg1 : DevRef τ sig))) := by
  after_results
  unfold rsqrtOf degOf dstOf
  rfl

set_option maxRecDepth 16384 in
set_option maxHeartbeats 4000000 in
/-- The zero the weight takes where the degree is not positive. -/
theorem A1_zero : after opsA1 V (main_cst_2 : DevRef τ sig) = constant (F := Ideal) S_ .f32 0x00000000#32 := by
  after_results

attribute [local irreducible] Host.gather Host.scatterAdd concatenate Host.rsqrt in
set_option maxRecDepth 16384 in
set_option maxHeartbeats 1000000 in
/-- The weights, from the three buffers the stretch before leaves. -/
theorem A2_weight : after opsA2 V (main_v14 : DevRef τ sig) = weightFrom (V (main_v12 : DevRef τ sig)) (V (main_v13 : DevRef τ sig)) (V (main_cst_2 : DevRef τ sig)) := by
  simp only [after_cons, after_nil]
  rfl

set_option maxRecDepth 16384 in
theorem A2_src : after opsA2 V (main_v5 : DevRef τ sig) = V (main_v5 : DevRef τ sig) := by
  simp only [after_cons, after_nil]
  rfl

set_option maxRecDepth 16384 in
theorem A2_dst : after opsA2 V (main_v6 : DevRef τ sig) = V (main_v6 : DevRef τ sig) := by
  simp only [after_cons, after_nil]
  rfl

set_option maxRecDepth 16384 in
set_option maxHeartbeats 4000000 in
/-- The coefficients, from the weights and the two lists. -/
theorem A3_coef : after opsA3 V (main_v29 : DevRef τ sig) = coefFrom (V (main_v14 : DevRef τ sig)) (V (main_v5 : DevRef τ sig)) (V (main_v6 : DevRef τ sig)) := by
  after_results
  unfold coefFrom startsOf
  rfl

set_option maxRecDepth 16384 in
theorem A3_src : after opsA3 V (main_v5 : DevRef τ sig) = V (main_v5 : DevRef τ sig) := by
  simp only [after_cons, after_nil]
  rfl

set_option maxRecDepth 16384 in
theorem A3_dst : after opsA3 V (main_v6 : DevRef τ sig) = V (main_v6 : DevRef τ sig) := by
  simp only [after_cons, after_nil]
  rfl

/-- The source list after the three stretches. -/
theorem A_src : after opsA3 (after opsA2 (after opsA1 V)) (main_v5 : DevRef τ sig) = srcOf (V (main_arg1 : DevRef τ sig)) := by
  rw [A3_src, A2_src, A1_src]

theorem A_dst : after opsA3 (after opsA2 (after opsA1 V)) (main_v6 : DevRef τ sig) = dstOf (V (main_arg1 : DevRef τ sig)) := by
  rw [A3_dst, A2_dst, A1_dst]

/-- The coefficients after the three stretches. -/
theorem A_coef : after opsA3 (after opsA2 (after opsA1 V)) (main_v29 : DevRef τ sig)
    = coefOf (srcOf (V (main_arg1 : DevRef τ sig))) (dstOf (V (main_arg1 : DevRef τ sig))) := by
  rw [A3_coef, A2_weight, A2_src, A2_dst, A1_pos, A1_rsqrt, A1_zero, A1_src, A1_dst]
  rfl

set_option maxRecDepth 16384 in
theorem A_arg0 : after opsA3 (after opsA2 (after opsA1 V)) (main_arg0 : DevRef τ sig) = V (main_arg0 : DevRef τ sig) := by
  simp only [after_cons, after_nil]
  rfl

set_option maxRecDepth 16384 in
theorem A_arg1 : after opsA3 (after opsA2 (after opsA1 V)) (main_arg1 : DevRef τ sig) = V (main_arg1 : DevRef τ sig) := by
  simp only [after_cons, after_nil]
  rfl

set_option maxRecDepth 16384 in
theorem A_arg2 : after opsA3 (after opsA2 (after opsA1 V)) (main_arg2 : DevRef τ sig) = V (main_arg2 : DevRef τ sig) := by
  simp only [after_cons, after_nil]
  rfl

set_option maxRecDepth 16384 in
theorem A_arg3 : after opsA3 (after opsA2 (after opsA1 V)) (main_arg3 : DevRef τ sig) = V (main_arg3 : DevRef τ sig) := by
  simp only [after_cons, after_nil]
  rfl

set_option maxRecDepth 16384 in
theorem A_arg4 : after opsA3 (after opsA2 (after opsA1 V)) (main_arg4 : DevRef τ sig) = V (main_arg4 : DevRef τ sig) := by
  simp only [after_cons, after_nil]
  rfl

set_option maxRecDepth 16384 in
theorem A_arg5 : after opsA3 (after opsA2 (after opsA1 V)) (main_arg5 : DevRef τ sig) = V (main_arg5 : DevRef τ sig) := by
  simp only [after_cons, after_nil]
  rfl

/-! ### The first layer -/

set_option maxRecDepth 16384 in
set_option maxHeartbeats 4000000 in
/-- The first layer on the first host product. -/
theorem B1_layer : after opsB1 V (main_v46 : DevRef τ sig)
    = layer128 (Host.dotGeneral (φ₁ := .f32) (φ₂ := .f32) dot_S50000x128_S128x128_S50000x128_1_0_0_1_n_n none (V (main_arg0 : DevRef τ sig)) (V (main_arg2 : DevRef τ sig))) (V (main_v5 : DevRef τ sig)) (V (main_v6 : DevRef τ sig)) (V (main_v29 : DevRef τ sig)) (V (main_arg3 : DevRef τ sig)) := by
  after_results
  unfold layer128 startsOf
  rfl

attribute [local irreducible] Host.gather Host.scatterAdd concatenate Host.rsqrt in
set_option maxRecDepth 16384 in
set_option maxHeartbeats 1000000 in
/-- The relu of the first layer. -/
theorem B2_relu : after opsB2 V (main_v47 : DevRef τ sig) = relu128 (V (main_v46 : DevRef τ sig)) := by
  simp only [after_cons, after_nil]
  rfl

/-- The hidden features. -/
theorem B_hidden : after opsB2 (after opsB1 V) (main_v47 : DevRef τ sig)
    = relu128 (layer128 (Host.dotGeneral (φ₁ := .f32) (φ₂ := .f32) dot_S50000x128_S128x128_S50000x128_1_0_0_1_n_n none (V (main_arg0 : DevRef τ sig)) (V (main_arg2 : DevRef τ sig))) (V (main_v5 : DevRef τ sig)) (V (main_v6 : DevRef τ sig)) (V (main_v29 : DevRef τ sig)) (V (main_arg3 : DevRef τ sig))) := by
  rw [B2_relu, B1_layer]

set_option maxRecDepth 16384 in
theorem B_arg1 : after opsB2 (after opsB1 V) (main_arg1 : DevRef τ sig) = V (main_arg1 : DevRef τ sig) := by
  simp only [after_cons, after_nil]
  rfl

set_option maxRecDepth 16384 in
theorem B_arg4 : after opsB2 (after opsB1 V) (main_arg4 : DevRef τ sig) = V (main_arg4 : DevRef τ sig) := by
  simp only [after_cons, after_nil]
  rfl

set_option maxRecDepth 16384 in
theorem B_arg5 : after opsB2 (after opsB1 V) (main_arg5 : DevRef τ sig) = V (main_arg5 : DevRef τ sig) := by
  simp only [after_cons, after_nil]
  rfl

/-! ### The index lists and the coefficients, second time -/

set_option maxRecDepth 16384 in
set_option maxHeartbeats 4000000 in
/-- The source list: row 0 of the edge array, then the self loops. -/
theorem C1_src : after opsC1 V (main_v53 : DevRef τ sig) = srcOf (V (main_arg1 : DevRef τ sig)) := by
  after_results
  unfold srcOf
  rfl

set_option maxRecDepth 16384 in
set_option maxHeartbeats 4000000 in
/-- The target list: row 1 of the edge array, then the self loops. -/
theorem C1_dst : after opsC1 V (main_v54 : DevRef τ sig) = dstOf (V (main_arg1 : DevRef τ sig)) := by
  after_results
  unfold dstOf
  rfl

set_option maxRecDepth 16384 in
set_option maxHeartbeats 4000000 in
/-- Where the degree is positive. -/
theorem C1_pos : after opsC1 V (main_v60 : DevRef τ sig) = posOf (dstOf (V (main_arg1 : DevRef τ sig))) := by
  after_results
  unfold posOf degOf dstOf
  rfl

set_option maxRecDepth 16384 in
set_option maxHeartbeats 4000000 in
/-- The degree's inverse square root. -/
theorem C1_rsqrt : after opsC1 V (main_v61 : DevRef τ sig) = rsqrtOf (dstOf (V (main_arg1 : DevRef τ sig))) := by
  after_results
  unfold rsqrtOf degOf dstOf
  rfl

set_option maxRecDepth 16384 in
set_option maxHeartbeats 4000000 in
/-- The zero the weight takes where the degree is not positive. -/
theorem C1_zero : after opsC1 V (main_cst_12 : DevRef τ sig) = constant (F := Ideal) S_ .f32 0x00000000#32 := by
  after_results

attribute [local irreducible] Host.gather Host.scatterAdd concatenate Host.rsqrt in
set_option maxRecDepth 16384 in
set_option maxHeartbeats 1000000 in
/-- The weights, from the three buffers the stretch before leaves. -/
theorem C2_weight : after opsC2 V (main_v62 : DevRef τ sig) = weightFrom (V (main_v60 : DevRef τ sig)) (V (main_v61 : DevRef τ sig)) (V (main_cst_12 : DevRef τ sig)) := by
  simp only [after_cons, after_nil]
  rfl

set_option maxRecDepth 16384 in
theorem C2_src : after opsC2 V (main_v53 : DevRef τ sig) = V (main_v53 : DevRef τ sig) := by
  simp only [after_cons, after_nil]
  rfl

set_option maxRecDepth 16384 in
theorem C2_dst : after opsC2 V (main_v54 : DevRef τ sig) = V (main_v54 : DevRef τ sig) := by
  simp only [after_cons, after_nil]
  rfl

set_option maxRecDepth 16384 in
set_option maxHeartbeats 4000000 in
/-- The coefficients, from the weights and the two lists. -/
theorem C3_coef : after opsC3 V (main_v77 : DevRef τ sig) = coefFrom (V (main_v62 : DevRef τ sig)) (V (main_v53 : DevRef τ sig)) (V (main_v54 : DevRef τ sig)) := by
  after_results
  unfold coefFrom startsOf
  rfl

set_option maxRecDepth 16384 in
theorem C3_src : after opsC3 V (main_v53 : DevRef τ sig) = V (main_v53 : DevRef τ sig) := by
  simp only [after_cons, after_nil]
  rfl

set_option maxRecDepth 16384 in
theorem C3_dst : after opsC3 V (main_v54 : DevRef τ sig) = V (main_v54 : DevRef τ sig) := by
  simp only [after_cons, after_nil]
  rfl

/-- The source list after the three stretches. -/
theorem C_src : after opsC3 (after opsC2 (after opsC1 V)) (main_v53 : DevRef τ sig) = srcOf (V (main_arg1 : DevRef τ sig)) := by
  rw [C3_src, C2_src, C1_src]

theorem C_dst : after opsC3 (after opsC2 (after opsC1 V)) (main_v54 : DevRef τ sig) = dstOf (V (main_arg1 : DevRef τ sig)) := by
  rw [C3_dst, C2_dst, C1_dst]

/-- The coefficients after the three stretches. -/
theorem C_coef : after opsC3 (after opsC2 (after opsC1 V)) (main_v77 : DevRef τ sig)
    = coefOf (srcOf (V (main_arg1 : DevRef τ sig))) (dstOf (V (main_arg1 : DevRef τ sig))) := by
  rw [C3_coef, C2_weight, C2_src, C2_dst, C1_pos, C1_rsqrt, C1_zero, C1_src, C1_dst]
  rfl

set_option maxRecDepth 16384 in
theorem C_v47 : after opsC3 (after opsC2 (after opsC1 V)) (main_v47 : DevRef τ sig) = V (main_v47 : DevRef τ sig) := by
  simp only [after_cons, after_nil]
  rfl

set_option maxRecDepth 16384 in
theorem C_arg4 : after opsC3 (after opsC2 (after opsC1 V)) (main_arg4 : DevRef τ sig) = V (main_arg4 : DevRef τ sig) := by
  simp only [after_cons, after_nil]
  rfl

set_option maxRecDepth 16384 in
theorem C_arg5 : after opsC3 (after opsC2 (after opsC1 V)) (main_arg5 : DevRef τ sig) = V (main_arg5 : DevRef τ sig) := by
  simp only [after_cons, after_nil]
  rfl

/-! ### The second layer -/

set_option maxRecDepth 16384 in
set_option maxHeartbeats 4000000 in
/-- The output: the second layer on the second host product. -/
theorem D_out : after opsD V (main_v94 : DevRef τ sig)
    = layer64 (Host.dotGeneral (φ₁ := .f32) (φ₂ := .f32) dot_S50000x128_S128x64_S50000x64_1_0_0_1_n_n none (V (main_v47 : DevRef τ sig)) (V (main_arg4 : DevRef τ sig))) (V (main_v53 : DevRef τ sig)) (V (main_v54 : DevRef τ sig)) (V (main_v77 : DevRef τ sig)) (V (main_arg5 : DevRef τ sig)) := by
  after_results
  unfold layer64 startsOf
  rfl

/-! ### The arguments through the whole line -/

set_option maxRecDepth 16384 in
set_option maxHeartbeats 4000000 in
theorem all_arg0 : after opsD (after opsC3 (after opsC2 (after opsC1 (after opsB2 (after opsB1 (after opsA3 (after opsA2 (after opsA1 V)))))))) (main_arg0 : DevRef τ sig) = V (main_arg0 : DevRef τ sig) := by
  simp only [after_cons, after_nil]
  rfl

set_option maxRecDepth 16384 in
set_option maxHeartbeats 4000000 in
theorem all_arg1 : after opsD (after opsC3 (after opsC2 (after opsC1 (after opsB2 (after opsB1 (after opsA3 (after opsA2 (after opsA1 V)))))))) (main_arg1 : DevRef τ sig) = V (main_arg1 : DevRef τ sig) := by
  simp only [after_cons, after_nil]
  rfl

set_option maxRecDepth 16384 in
set_option maxHeartbeats 4000000 in
theorem all_arg2 : after opsD (after opsC3 (after opsC2 (after opsC1 (after opsB2 (after opsB1 (after opsA3 (after opsA2 (after opsA1 V)))))))) (main_arg2 : DevRef τ sig) = V (main_arg2 : DevRef τ sig) := by
  simp only [after_cons, after_nil]
  rfl

set_option maxRecDepth 16384 in
set_option maxHeartbeats 4000000 in
theorem all_arg3 : after opsD (after opsC3 (after opsC2 (after opsC1 (after opsB2 (after opsB1 (after opsA3 (after opsA2 (after opsA1 V)))))))) (main_arg3 : DevRef τ sig) = V (main_arg3 : DevRef τ sig) := by
  simp only [after_cons, after_nil]
  rfl

set_option maxRecDepth 16384 in
set_option maxHeartbeats 4000000 in
theorem all_arg4 : after opsD (after opsC3 (after opsC2 (after opsC1 (after opsB2 (after opsB1 (after opsA3 (after opsA2 (after opsA1 V)))))))) (main_arg4 : DevRef τ sig) = V (main_arg4 : DevRef τ sig) := by
  simp only [after_cons, after_nil]
  rfl

set_option maxRecDepth 16384 in
set_option maxHeartbeats 4000000 in
theorem all_arg5 : after opsD (after opsC3 (after opsC2 (after opsC1 (after opsB2 (after opsB1 (after opsA3 (after opsA2 (after opsA1 V)))))))) (main_arg5 : DevRef τ sig) = V (main_arg5 : DevRef τ sig) := by
  simp only [after_cons, after_nil]
  rfl

end Stretches

/-! ## A host matrix product at the ideal values -/

abbrev E1 : DotDims S50000x128 S128x128 S50000x128 := dot_S50000x128_S128x128_S50000x128_1_0_0_1_n_n
abbrev E2 : DotDims S50000x128 S128x64 S50000x64 := dot_S50000x128_S128x64_S50000x64_1_0_0_1_n_n

theorem l1_0 (i : S50000x128.Idx) (q : E1.contr.Idx) : (E1.lhsIdx i q 0).val = (i 0).val := by
  unfold DotDims.lhsIdx
  rw [dif_neg (show ¬(0 : Fin S50000x128.rank) ∈ E1.lhsBatch by decide), dif_pos (show (0 : Fin S50000x128.rank) ∈ E1.lhsNonContracting by decide)]
  rfl
theorem l1_1 (i : S50000x128.Idx) (q : E1.contr.Idx) : (E1.lhsIdx i q 1).val = (q ⟨0, by decide⟩).val :=
  E1.lhsIdx_val_of_single rfl i q
theorem r1_0 (i : S50000x128.Idx) (q : E1.contr.Idx) : (E1.rhsIdx i q 0).val = (q ⟨0, by decide⟩).val :=
  E1.rhsIdx_val_of_single rfl i q
theorem r1_1 (i : S50000x128.Idx) (q : E1.contr.Idx) : (E1.rhsIdx i q 1).val = (i 1).val := by
  unfold DotDims.rhsIdx
  rw [dif_neg (show ¬(1 : Fin S128x128.rank) ∈ E1.rhsBatch by decide), dif_pos (show (1 : Fin S128x128.rank) ∈ E1.rhsNonContracting by decide)]
  rfl

/-- The first host product is the sum over the contracted position. -/
theorem dot1_eq (x : FArr S50000x128) (w : FArr S128x128) : Host.dotGeneral E1 none x w = prod128 x w := by
  funext i
  simp only [Host.dotGeneral]
  unfold prod128
  rw [Ideal.dotGeneral_apply, ← Equiv.sum_comp (contrEquiv1 E1 128 rfl rfl).symm]
  refine Finset.sum_congr rfl fun k _ => ?_
  have hk := contrEquiv1_symm_val E1 128 rfl rfl k
  have el : E1.lhsIdx i ((contrEquiv1 E1 128 rfl rfl).symm k) = ix2 (i 0) k := funext fun a => Fin.ext (by
    match a with
    | ⟨0, _⟩ => exact l1_0 _ _
    | ⟨1, _⟩ => exact (l1_1 _ _).trans hk)
  have er : E1.rhsIdx i ((contrEquiv1 E1 128 rfl rfl).symm k) = ix2 k (i 1) := funext fun a => Fin.ext (by
    match a with
    | ⟨0, _⟩ => exact (r1_0 _ _).trans hk
    | ⟨1, _⟩ => exact r1_1 _ _)
  rw [el, er]
  rfl

theorem l2_0 (i : S50000x64.Idx) (q : E2.contr.Idx) : (E2.lhsIdx i q 0).val = (i 0).val := by
  unfold DotDims.lhsIdx
  rw [dif_neg (show ¬(0 : Fin S50000x128.rank) ∈ E2.lhsBatch by decide), dif_pos (show (0 : Fin S50000x128.rank) ∈ E2.lhsNonContracting by decide)]
  rfl
theorem l2_1 (i : S50000x64.Idx) (q : E2.contr.Idx) : (E2.lhsIdx i q 1).val = (q ⟨0, by decide⟩).val :=
  E2.lhsIdx_val_of_single rfl i q
theorem r2_0 (i : S50000x64.Idx) (q : E2.contr.Idx) : (E2.rhsIdx i q 0).val = (q ⟨0, by decide⟩).val :=
  E2.rhsIdx_val_of_single rfl i q
theorem r2_1 (i : S50000x64.Idx) (q : E2.contr.Idx) : (E2.rhsIdx i q 1).val = (i 1).val := by
  unfold DotDims.rhsIdx
  rw [dif_neg (show ¬(1 : Fin S128x64.rank) ∈ E2.rhsBatch by decide), dif_pos (show (1 : Fin S128x64.rank) ∈ E2.rhsNonContracting by decide)]
  rfl

/-- The second host product likewise. -/
theorem dot2_eq (x : FArr S50000x128) (w : FArr S128x64) : Host.dotGeneral E2 none x w = prod64 x w := by
  funext i
  simp only [Host.dotGeneral]
  unfold prod64
  rw [Ideal.dotGeneral_apply, ← Equiv.sum_comp (contrEquiv1 E2 128 rfl rfl).symm]
  refine Finset.sum_congr rfl fun k _ => ?_
  have hk := contrEquiv1_symm_val E2 128 rfl rfl k
  have el : E2.lhsIdx i ((contrEquiv1 E2 128 rfl rfl).symm k) = ix2 (i 0) k := funext fun a => Fin.ext (by
    match a with
    | ⟨0, _⟩ => exact l2_0 _ _
    | ⟨1, _⟩ => exact (l2_1 _ _).trans hk)
  have er : E2.rhsIdx i ((contrEquiv1 E2 128 rfl rfl).symm k) = ix2 k (i 1) := funext fun a => Fin.ext (by
    match a with
    | ⟨0, _⟩ => exact (r2_0 _ _).trans hk
    | ⟨1, _⟩ => exact r2_1 _ _)
  rw [el, er]
  rfl

/-! ## The whole line -/

/-- The fold of the four stretches leaves the network's output of the six argument arrays in the result buffer. -/
theorem value (V : Valuation τ sig (Elt Ideal)) :
    after opsD (after opsC3 (after opsC2 (after opsC1 (after opsB2 (after opsB1 (after opsA3 (after opsA2 (after opsA1 V)))))))) (main_v94 : DevRef τ sig)
      = output (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [D_out, C_src, C_dst, C_coef, C_v47, C_arg4, C_arg5, B_hidden, B_arg1, B_arg4, B_arg5,
    A_src, A_dst, A_coef, A_arg0, A_arg1, A_arg2, A_arg3, A_arg4, A_arg5, dot1_eq, dot2_eq]
  rfl

/-- The reference's run, read: the result buffer at the network's output of the launch contents of the six
    arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94)
          = output (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v94).trans (value (launchContents m c)),
       (h c main_arg0).trans (all_arg0 (launchContents m c)),
       (h c main_arg1).trans (all_arg1 (launchContents m c)),
       (h c main_arg2).trans (all_arg2 (launchContents m c)),
       (h c main_arg3).trans (all_arg3 (launchContents m c)),
       (h c main_arg4).trans (all_arg4 (launchContents m c)),
       (h c main_arg5).trans (all_arg5 (launchContents m c))⟩)
    (run_fold m ρ)

end Cert.ReferenceIdeal.Whole

end
-- ==== Proof.lean ====
/-
  The certificate of a two-layer graph convolution: a kernel program whose two matrix products run on the
  TensorCore's matrix unit (bf16 operands, f32 accumulation, five row blocks of 10000 rows each) against the jnp
  reference, whose products are host `dot_general`s; everything else — the index lists with their self loops, the
  degrees by scatter-add, the weights deg^(-1/2), the per-entry coefficients, the gather of source rows, their
  scaling, the scatter-add into target rows, the biases and the relu — is the same host text in both programs,
  except that the kernel's program makes the index lists and the coefficients once and the reference makes them
  once per layer.

  At the ideal values both programs end with the same function `Cert.Gcn.output` of the six argument arrays in
  their result buffers: rounding to bf16 is the identity and a matrix-unit product into a zero accumulator is the
  sum over the contracted position, which is also what the host product is; the second copy of the index lists and
  coefficients is the same function of the same edge array.  No algebraic law joins the two sides and the
  precondition (finite inputs) is not used.

  The three frames: the kernel's two are the generated frame certificates; the reference's is its run with the
  result dropped.  The idealization rewrote no operation, so `preserves` is `True`.
-/
import proofs.«171477_j10788957848201_1_alg».proof.Defs
import proofs.«171477_j10788957848201_1_alg».proof.Proof.Gen.Kernel
import proofs.«171477_j10788957848201_1_alg».proof.Proof.Gen.Kernel.Skeleton
import proofs.«171477_j10788957848201_1_alg».proof.Proof.Gen.Kernel.Launch
import proofs.«171477_j10788957848201_1_alg».proof.Proof.Gen.Kernel.Points
import proofs.«171477_j10788957848201_1_alg».proof.Proof.Gen.Kernel.Frame
import proofs.«171477_j10788957848201_1_alg».proof.Proof.Gen.KernelIdeal
import proofs.«171477_j10788957848201_1_alg».proof.Proof.Gen.KernelIdeal.Skeleton
import proofs.«171477_j10788957848201_1_alg».proof.Proof.Gen.KernelIdeal.Launch
import proofs.«171477_j10788957848201_1_alg».proof.Proof.Gen.KernelIdeal.Points
import proofs.«171477_j10788957848201_1_alg».proof.Proof.Gen.KernelIdeal.Frame
import proofs.«171477_j10788957848201_1_alg».proof.Proof.Gen.ReferenceIdeal
import proofs.«171477_j10788957848201_1_alg».proof.Proof.Gen.Pre_finite_inputs
import proofs.«171477_j10788957848201_1_alg».proof.Proof.KernelValue
import proofs.«171477_j10788957848201_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Whole.run m ρ)

/-- Both runs end with the network's output of the argument arrays in the result buffer; the memories agree on
    the arguments, so it is one array. -/
theorem algebraic : Cert.algebraic_KernelIdeal_ReferenceIdeal := by
  intro m ρ m' ρ' _ hagree
  refine ⟨fun c => Cert.Gcn.output (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Whole.run_value m ρ, ?_⟩
  refine (θ_run Cert.ReferenceIdeal.defs _ _).mono (fun _ h c => ⟨(h c).1.trans ?_, (h c).2⟩)
    (Cert.ReferenceIdeal.Whole.run m' ρ')
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
